-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel

variable [Facts]

def fn_part1 {F : FTy → Type} [FloatOps F] (main_v13 : IVec S_ 1) (main_v16 : IVec S16384x512 1) : IVec S_ 1 :=
  let main_c_5 : IVec S_ 1 := constantI S_ 1 1#1
  let main_v17 : IVec S_ 1 := (fun x v => Host.reduce IntOp.andi x v reducesTo_S16384x512_S_d0_1 h_S_) main_v16 main_c_5
  let main_v18 : IVec S_ 1 := andi main_v13 main_v17
  main_v18

def fn {F : FTy → Type} [FloatOps F] (main_arg0 : FVec F S16384x512 .f32) (main_arg1 : FVec F S16384x512 .f32) (main_arg2 : FVec F S16384x512 .f32) (main_arg3 : FVec F S16384x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S16384x512 .f32 := Host.absf main_arg3
  let main_cst_4 : FVec F S_ .f32 := constant S_ .f32 0x7F800000#32
  let main_v15 : FVec F S16384x512 .f32 := broadcastInDim S16384x512 ![] bcast_S_S16384x512 main_cst_4
  let main_v16 : IVec S16384x512 1 := cmpf .olt main_v14 main_v15
  fn_part1 (F := F) main_v13 main_v16
-- ==== Kernel.lean ====
abbrev S16384x512 : Shape := ⟨2, ![16384, 512]⟩
abbrev S16x128 : Shape := ⟨2, ![16, 128]⟩
abbrev S1024x512 : Shape := ⟨2, ![1024, 512]⟩
abbrev S8x128 : Shape := ⟨2, ![8, 128]⟩
abbrev S1x512 : Shape := ⟨2, ![1, 512]⟩
abbrev S512 : Shape := ⟨1, ![512]⟩
abbrev S1 : Shape := ⟨1, ![1]⟩
abbrev S1x1 : Shape := ⟨2, ![1, 1]⟩
abbrev S_ : Shape := ⟨0, ![]⟩

abbrev nBuf : Space → Nat
  | .hbm => 9
  | .vmem => 11
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S8x128, .f32⟩
  | .local _ .vmem, ⟨9, _⟩ => ⟨S8x128, .f32⟩
  | .local _ .vmem, ⟨10, _⟩ => ⟨S1x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v29 : BitVec 1 := Scalar.cmpi .eq arg1 c7_i32
  let v30 : BitVec 32 := Scalar.extui v29
  let c0_i32_17 : BitVec 32 := 0#32
  let v31 : BitVec 1 := Scalar.cmpi .ne v30 c0_i32_17
  v31

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1024x512_S1024x512_0_0 : ∀ a, (![0, 0] : Fin 2 → Nat) a + S1024x512.size a ≤ S1024x512.size a
  h_S1024x512 : 0 < S1024x512.numel
  reduces_S1024x512_S512 : S1024x512.Reduces [0] S512
  shapeCasts_S512_S1x512 : S512.ShapeCasts S1x512
  reduces_S1x512_S1 : S1x512.Reduces [1] S1
  shapeCasts_S1_S1x1 : S1.ShapeCasts S1x1
  shapeCasts_S1x1_S1x1 : S1x1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  reducesTo_S16x128_S_d0_1 : S16x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x512.size a
  hwx0_1 : ∀ i : grid0.Coords, EltTy.bits .f32 = 32 ∨ (Rect.block (s := S16384x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S16384x512.size a
  hwx0_2 : ∀ i : grid0.Coords, EltTy.bits .f32 = 32 ∨ (Rect.block (s := S16384x512) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S16384x512.size a
  hwx0_3 : ∀ i : grid0.Coords, EltTy.bits .f32 = 32 ∨ (Rect.block (s := S16384x512) S1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S16x128.size a
  hwx0_4 : ∀ i : grid0.Coords, EltTy.bits .f32 = 32 ∨ (Rect.block (s := S16x128) S8x128.size (cc0_transform_4 i) (hinb0_4 i)).WholeWords (EltTy.packing .f32)

variable [Facts₀]

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x512 : Shape := ⟨2, ![16384, 512]⟩
abbrev S_ : Shape := ⟨0, ![]⟩
abbrev S16384 : Shape := ⟨1, ![16384]⟩

abbrev nBuf : Space → Nat
  | .hbm => 26
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S16384x512, .f32⟩
  | .hbm, ⟨8, _⟩ => ⟨S16384x512, .f32⟩
  | .hbm, ⟨9, _⟩ => ⟨S16384x512, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S16384x512, .f32⟩
  | .hbm, ⟨14, _⟩ => ⟨S_, .f32⟩
  | .hbm, ⟨15, _⟩ => ⟨S16384x512, .f32⟩
  | .hbm, ⟨16, _⟩ => ⟨S16384x512, .f32⟩
  | .hbm, ⟨17, _⟩ => ⟨S_, .f32⟩
  | .hbm, ⟨18, _⟩ => ⟨S16384, .f32⟩
  | .hbm, ⟨19, _⟩ => ⟨S_, .f32⟩
  | .hbm, ⟨20, _⟩ => ⟨S16384, .f32⟩
  | .hbm, ⟨21, _⟩ => ⟨S16384, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S_S16384x512 : S_.BroadcastsInDim S16384x512 (![] : Fin 0 → Fin S16384x512.rank)
  reducesTo_S16384x512_S16384_d1 : S16384x512.ReducesTo [1] S16384
  h_S_ : 0 < S_.numel
  bcast_S_S16384 : S_.BroadcastsInDim S16384 (![] : Fin 0 → Fin S16384.rank)
  reducesTo_S16384_S_d0 : S16384.ReducesTo [0] S_

variable [Facts₀]

class Facts : Prop extends Facts₀ where

variable [Facts]
-- ==== Proof.LibFiniteReal.lean ====
/-
  Finite extended reals.

  An extended real is *finite* (`IsReal`) when it is the image of a real number. The sums,
  products, quotients and elementary functions of extended reals have corner cases at the two
  infinities (`⊤ + ⊥ = ⊥`, `0 * ⊤ = 0`, a quotient by zero, the square root of a negative
  number); on finite arguments none of them is met, and the value is the image of the
  corresponding real expression. This file records that:

  * `IsReal` is closed under `+`, `-`, `*`, unary `-`, finite sums, `max`, the exponential,
    the square root of a nonnegative number, the reciprocal square root of a positive number,
    a quotient by a nonzero number, and the logistic function;
  * sums of squares of finite numbers are nonnegative, and a nonempty sum of positive finite
    numbers is positive;
  * a few single-precision bit patterns denote finite (positive) numbers;
  * `gn_fold`: for finite numbers, `x * (inv * g) + (b - mean * (inv * g))`
    equals `(x - mean) * inv * g + b` (an affine map applied to a normalised value, with the
    scale and the shift folded together or not). The identity fails at the infinities, where
    subtraction does not cancel; finiteness is what makes it ring arithmetic.
-/
import Idealize.ShloMosaic.PureOps.Ideal
import Idealize.ShloMosaic.PureOps.Ideal.Laws

noncomputable section

namespace Cert.LibFiniteReal

open Idealize.ShloMosaic
open scoped BigOperators

/-- An extended real that is the image of a real number. -/
def IsReal (x : EReal) : Prop := ∃ r : ℝ, x = (r : EReal)

/-! ### Closure under the ring operations -/

theorem IsReal.coe (r : ℝ) : IsReal (r : EReal) := ⟨r, rfl⟩

theorem IsReal.zero : IsReal 0 := ⟨0, EReal.coe_zero.symm⟩

theorem IsReal.one : IsReal 1 := ⟨1, EReal.coe_one.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

/-! ### Finite sums -/

/-- The image of a finite sum of reals is the sum of the images. -/
theorem sum_coe {ι : Type*} (s : Finset ι) (g : ι → ℝ) :
    (∑ i ∈ s, ((g i : ℝ) : EReal)) = ((∑ i ∈ s, g i : ℝ) : EReal) := by
  classical
  refine Finset.induction_on s ?_ ?_
  · rw [Finset.sum_empty, Finset.sum_empty, EReal.coe_zero]
  · intro a t ha ih
    rw [Finset.sum_insert ha, Finset.sum_insert ha, ih, EReal.coe_add]

theorem IsReal.sum {ι : Type*} (s : Finset ι) (f : ι → EReal) (h : ∀ i ∈ s, IsReal (f i)) :
    IsReal (∑ i ∈ s, f i) := by
  classical
  revert h
  refine Finset.induction_on s ?_ ?_
  · intro _
    rw [Finset.sum_empty]
    exact IsReal.zero
  · intro a t ha ih h
    rw [Finset.sum_insert ha]
    exact (h a (Finset.mem_insert_self a t)).add (ih fun i hi => h i (Finset.mem_insert_of_mem hi))

/-! ### Maximum and exponential -/

theorem IsReal.max {x y : EReal} (hx : IsReal x) (hy : IsReal y) : IsReal (max x y) := by
  rcases max_choice x y with h | h
  · rw [h]; exact hx
  · rw [h]; exact hy

theorem IsReal.exp {x : EReal} (hx : IsReal x) : IsReal (Ideal.exp x) := by
  obtain ⟨a, rfl⟩ := hx
  exact ⟨Real.exp a, Ideal.exp_coe a⟩

theorem exp_pos_of_isReal {x : EReal} (hx : IsReal x) : 0 < Ideal.exp x := by
  obtain ⟨a, rfl⟩ := hx
  rw [Ideal.exp_coe]
  exact EReal.coe_pos.mpr (Real.exp_pos a)

/-! ### Nonnegativity and positivity -/

theorem mul_self_nonneg' {x : EReal} (hx : IsReal x) : 0 ≤ x * x := by
  obtain ⟨a, rfl⟩ := hx
  rw [← EReal.coe_mul]
  exact EReal.coe_nonneg.mpr (mul_self_nonneg a)

theorem sum_nonneg' {ι : Type*} (s : Finset ι) (f : ι → EReal) (h : ∀ i ∈ s, 0 ≤ f i) :
    0 ≤ ∑ i ∈ s, f i :=
  Finset.sum_nonneg h

/-- A nonempty sum of positive finite numbers is positive. -/
theorem sum_pos' {ι : Type*} (s : Finset ι) (f : ι → EReal) (hne : s.Nonempty)
    (hr : ∀ i ∈ s, IsReal (f i)) (hp : ∀ i ∈ s, 0 < f i) : 0 < ∑ i ∈ s, f i := by
  have hf : ∀ i ∈ s, f i = (((f i).toReal : ℝ) : EReal) := by
    intro i hi
    obtain ⟨r, hri⟩ := hr i hi
    rw [hri, EReal.toReal_coe]
  rw [Finset.sum_congr rfl hf, sum_coe]
  refine EReal.coe_pos.mpr (Finset.sum_pos ?_ hne)
  intro i hi
  have h := hp i hi
  rw [hf i hi] at h
  exact EReal.coe_pos.mp h

/-! ### Square root, reciprocal square root, quotient -/

theorem IsReal.sqrt {x : EReal} (hx : IsReal x) (h0 : 0 ≤ x) : IsReal (Ideal.sqrt x) := by
  obtain ⟨a, rfl⟩ := hx
  have ha : ¬ a < 0 := not_lt.mpr (EReal.coe_nonneg.mp h0)
  rw [Ideal.sqrt_coe, if_neg ha]
  exact ⟨Real.sqrt a, rfl⟩

theorem sqrt_nonneg' {x : EReal} (hx : IsReal x) (h0 : 0 ≤ x) : 0 ≤ Ideal.sqrt x := by
  obtain ⟨a, rfl⟩ := hx
  have ha : ¬ a < 0 := not_lt.mpr (EReal.coe_nonneg.mp h0)
  rw [Ideal.sqrt_coe, if_neg ha]
  exact EReal.coe_nonneg.mpr (Real.sqrt_nonneg a)

theorem IsReal.rsqrt {x : EReal} (hx : IsReal x) (h0 : 0 < x) : IsReal (Ideal.rsqrt x) := by
  obtain ⟨a, rfl⟩ := hx
  have ha : 0 < a := EReal.coe_pos.mp h0
  rw [Ideal.rsqrt_coe, if_neg (not_lt.mpr ha.le), if_neg ha.ne']
  exact ⟨(Real.sqrt a)⁻¹, rfl⟩

theorem IsReal.div {x y : EReal} (hx : IsReal x) (hy : IsReal y) (h0 : y ≠ 0) :
    IsReal (Ideal.div x y) := by
  obtain ⟨a, rfl⟩ := hx
  obtain ⟨b, rfl⟩ := hy
  have hb : b ≠ 0 := fun h => h0 (by rw [h, EReal.coe_zero])
  rw [Ideal.div_coe hb, ← EReal.coe_mul]
  exact ⟨a * (1 / b), rfl⟩

theorem IsReal.div_pos {x y : EReal} (hx : IsReal x) (hy : IsReal y) (h0 : 0 < y) :
    IsReal (Ideal.div x y) :=
  hx.div hy h0.ne'

/-! ### The fold of an affine map into a normalisation -/

/-- For finite numbers, scaling `x` by `inv * g` and shifting by `b - mean * (inv * g)` is the same
    as centring at `mean`, scaling by `inv`, then by `g`, and adding `b`. -/
theorem gn_fold {x mean inv g b : EReal} (hx : IsReal x) (hm : IsReal mean) (hi : IsReal inv)
    (hg : IsReal g) (hb : IsReal b) :
    x * (inv * g) + (b - mean * (inv * g)) = (x - mean) * inv * g + b := by
  obtain ⟨x', rfl⟩ := hx
  obtain ⟨m', rfl⟩ := hm
  obtain ⟨i', rfl⟩ := hi
  obtain ⟨g', rfl⟩ := hg
  obtain ⟨b', rfl⟩ := hb
  simp only [← EReal.coe_mul, ← EReal.coe_add, ← EReal.coe_sub]
  congr 1
  ring

/-! ### A maximum with a positive number; the logistic function -/

theorem max_pos_right (x : EReal) {e : EReal} (he : 0 < e) : 0 < max x e :=
  lt_max_of_lt_right he

theorem IsReal.logistic {x : EReal} (hx : IsReal x) : IsReal (Ideal.logistic x) := by
  obtain ⟨a, rfl⟩ := hx
  exact ⟨(1 + Real.exp (-a))⁻¹, Ideal.logistic_coe a⟩

/-! ### Some single-precision bit patterns

Each pattern below has sign bit `0` and an exponent field that is neither all zeros nor all ones, so
it denotes the finite positive number `(2^23 + T) * 2^(E - 150)`, `E` the exponent field and `T` the
trailing significand. -/

/-- `0x3F800000`: `E = 127`, `T = 0`, the number `1`. -/
theorem ofBits_f32_3F800000 : Ideal.ofBits .f32 0x3F800000#32 = 1 := by
  simp [Ideal.ofBits, Ideal.ieee]
  rw [← EReal.coe_mul, ← EReal.coe_one]
  congr 1
  norm_num

/-- `0x48000000`: `E = 144`, `T = 0`, the number `2^17 = 131072`. -/
theorem ofBits_f32_48000000 : Ideal.ofBits .f32 0x48000000#32 = ((131072 : ℝ) : EReal) := by
  simp [Ideal.ofBits, Ideal.ieee]
  rw [← EReal.coe_mul]
  congr 1
  norm_num

theorem isReal_ofBits_f32_48000000 : IsReal (Ideal.ofBits .f32 0x48000000#32) :=
  ⟨131072, ofBits_f32_48000000⟩

theorem ofBits_f32_48000000_pos : 0 < Ideal.ofBits .f32 0x48000000#32 := by
  rw [ofBits_f32_48000000]
  exact EReal.coe_pos.mpr (by norm_num)

theorem ofBits_f32_48000000_ne_zero : Ideal.ofBits .f32 0x48000000#32 ≠ 0 :=
  ofBits_f32_48000000_pos.ne'

/-- `0x3D000000`: `E = 122`, `T = 0`, the number `2^(-5) = 1/32`. -/
theorem ofBits_f32_3D000000 : Ideal.ofBits .f32 0x3D000000#32 = ((1 / 32 : ℝ) : EReal) := by
  simp [Ideal.ofBits, Ideal.ieee]
  rw [← EReal.coe_mul]
  congr 1
  norm_num

theorem isReal_ofBits_f32_3D000000 : IsReal (Ideal.ofBits .f32 0x3D000000#32) :=
  ⟨1 / 32, ofBits_f32_3D000000⟩

theorem ofBits_f32_3D000000_pos : 0 < Ideal.ofBits .f32 0x3D000000#32 := by
  rw [ofBits_f32_3D000000]
  exact EReal.coe_pos.mpr (by norm_num)

/-- `0x3727C5AC`: `E = 110`, `2^23 + T = 10995116`, the number `10995116 / 2^40`, the single-precision
    number nearest `10^(-5)`. -/
theorem ofBits_f32_3727C5AC :
    Ideal.ofBits .f32 0x3727C5AC#32 = ((10995116 * (2 ^ 40)⁻¹ : ℝ) : EReal) := by
  simp [Ideal.ofBits, Ideal.ieee]

theorem isReal_ofBits_f32_3727C5AC : IsReal (Ideal.ofBits .f32 0x3727C5AC#32) :=
  ⟨10995116 * (2 ^ 40)⁻¹, ofBits_f32_3727C5AC⟩

theorem ofBits_f32_3727C5AC_pos : 0 < Ideal.ofBits .f32 0x3727C5AC#32 := by
  rw [ofBits_f32_3727C5AC]
  exact EReal.coe_pos.mpr (by positivity)

/-- `0x2B8CBCCC`: `E = 87`, `2^23 + T = 9223372`, the number `9223372 / 2^63`, the single-precision
    number nearest `10^(-12)`. -/
theorem ofBits_f32_2B8CBCCC :
    Ideal.ofBits .f32 0x2B8CBCCC#32 = ((9223372 * (2 ^ 63)⁻¹ : ℝ) : EReal) := by
  simp [Ideal.ofBits, Ideal.ieee]

theorem isReal_ofBits_f32_2B8CBCCC : IsReal (Ideal.ofBits .f32 0x2B8CBCCC#32) :=
  ⟨9223372 * (2 ^ 63)⁻¹, ofBits_f32_2B8CBCCC⟩

theorem ofBits_f32_2B8CBCCC_pos : 0 < Ideal.ofBits .f32 0x2B8CBCCC#32 := by
  rw [ofBits_f32_2B8CBCCC]
  exact EReal.coe_pos.mpr (by positivity)

end Cert.LibFiniteReal
-- ==== Proof.LibBlockSum.lean ====
/-
  A sum over `a · b` consecutive rows, taken block by block.

  A kernel that walks an array of `a · b` rows in `a` blocks of `b` rows and accumulates one partial sum per block
  computes `Σ_p Σ_q f (p · b + q)`; a reference that reduces the whole axis at once computes `Σ_r f r`.
  In any commutative additive monoid (the extended reals included: their addition is commutative and associative
  at the infinities too) the two are equal, and so is the three-level form `a · b · c` rows walked as
  `a` groups of `b` blocks of `c` rows.
-/
import Mathlib.Algebra.BigOperators.Fin
import Mathlib.Logic.Equiv.Fin.Basic

namespace LibBlockSum

variable {M : Type} [AddCommMonoid M]

/-- Rows `0 … a·b − 1` summed at once are the `a` blocks of `b` rows summed one after the other. -/
theorem sum_blocks (a b : ℕ) (f : ℕ → M) :
    ∑ r : Fin (a * b), f r.val = ∑ p : Fin a, ∑ q : Fin b, f (p.val * b + q.val) := by
  rw [← Fintype.sum_prod_type' (f := fun (p : Fin a) (q : Fin b) => f (p.val * b + q.val))]
  refine (Fintype.sum_equiv finProdFinEquiv _ _ fun x => ?_).symm
  rw [finProdFinEquiv_apply_val, Nat.mul_comm b, Nat.add_comm]

/-- Three levels: `a` groups of `b` blocks of `c` rows. -/
theorem sum_blocks₃ (a b c : ℕ) (f : ℕ → M) :
    ∑ r : Fin (a * b * c), f r.val
      = ∑ p : Fin a, ∑ q : Fin b, ∑ s : Fin c, f ((p.val * b + q.val) * c + s.val) := by
  rw [sum_blocks (a * b) c f, sum_blocks a b fun k => ∑ s : Fin c, f (k * c + s.val)]

end LibBlockSum
-- ==== Proof.KlSpec.lean ====
/-
  The Kullback–Leibler divergence between two diagonal Gaussians, averaged over a batch, on the extended reals.

  For a row `b` and a coordinate `d` the summand is
    `(q_lv − p_lv) + exp (−(q_lv − p_lv)) + (p_mu − q_mu)² · exp (−q_lv) − 1`,
  and the loss is `(1/16384) · Σ_b ½ · Σ_d summand(b, d)` over 16384 rows of 512 coordinates.
  Two arrangements of that double sum are compared here:
    * the whole-array one: per row, the 512 summands added and halved; the 16384 halves added; the total divided by 16384;
    * the blocked one: the rows cut into 2 groups of 8 blocks of 1024 rows; per group a vector of 512 column sums
      accumulated block after block, the 512 entries added, halved and divided by 1024; that one number written to the
      1024 cells of an 8 × 128 tile; all 2048 cells added and the total multiplied by 2⁻¹⁴.
  On real numbers both are `(1/16384) · ½ · Σ_b Σ_d summand(b, d)`: the 1024 equal cells undo the division by 1024, and
  a sum over 2·8·1024 consecutive rows is the iterated sum over groups, blocks and rows. On the extended reals the
  step needs the summands to be real numbers (halving does not distribute over a sum that contains both infinities),
  which they are when the four inputs are.
-/
import Idealize.ShloMosaic.PureOps.Ideal
import Idealize.ShloMosaic.PureOps.Ideal.Laws
import Idealize.ShloMosaic.Lib.ValueIdx
import proofs.«147227_j11879879543853_2_alg».proof.Proof.LibFiniteReal
import proofs.«147227_j11879879543853_2_alg».proof.Proof.LibBlockSum

noncomputable section

namespace KlSpec

open Idealize.ShloMosaic Idealize.ShloMosaic.ValueIdx Cert.LibFiniteReal
open scoped BigOperators

/-! ## The constants, as the numbers their binary32 words denote -/

/-- The word of 0.0. -/
abbrev w0 : EReal := Ideal.ofBits .f32 0x00000000#32
/-- The word of 1.0. -/
abbrev w1 : EReal := Ideal.ofBits .f32 0x3F800000#32
/-- The word of 0.5. -/
abbrev wHalf : EReal := Ideal.ofBits .f32 0x3F000000#32
/-- The word of 1024.0. -/
abbrev w1024 : EReal := Ideal.ofBits .f32 0x44800000#32
/-- The word of 16384.0. -/
abbrev w16384 : EReal := Ideal.ofBits .f32 0x46800000#32
/-- The word of 2⁻¹⁴ = 1/16384, an exact dyadic. -/
abbrev wInv16384 : EReal := Ideal.ofBits .f32 0x38800000#32

theorem w0_eq : w0 = ((0 : ℝ) : EReal) := by
  rw [EReal.coe_zero]; exact Ideal.ofBits_zero_f32

theorem w1_eq : w1 = ((1 : ℝ) : EReal) := by
  rw [EReal.coe_one]; exact ofBits_f32_3F800000

/-- `0x3F000000`: exponent field 126, significand 1: the number 2⁻¹. -/
theorem wHalf_eq : wHalf = ((1 / 2 : ℝ) : EReal) := by
  simp [Ideal.ofBits, Ideal.ieee]
  rw [← EReal.coe_mul]
  congr 1
  norm_num

/-- `0x44800000`: exponent field 137, significand 1: the number 2¹⁰. -/
theorem w1024_eq : w1024 = ((1024 : ℝ) : EReal) := by
  simp [Ideal.ofBits, Ideal.ieee]
  rw [← EReal.coe_mul]
  congr 1
  norm_num

/-- `0x46800000`: exponent field 141, significand 1: the number 2¹⁴. -/
theorem w16384_eq : w16384 = ((16384 : ℝ) : EReal) := by
  simp [Ideal.ofBits, Ideal.ieee]
  rw [← EReal.coe_mul]
  congr 1
  norm_num

/-- `0x38800000`: exponent field 113, significand 1: the number 2⁻¹⁴. -/
theorem wInv16384_eq : wInv16384 = ((1 / 16384 : ℝ) : EReal) := by
  simp [Ideal.ofBits, Ideal.ieee]
  rw [← EReal.coe_mul]
  congr 1
  norm_num

/-! ## One summand -/

/-- The summand at one entry, from the four inputs there (means and log-variances of `p` and `q`), the negations
    written as differences from zero. -/
def term (pm plv qm qlv : EReal) : EReal :=
  ((qlv - plv) + Ideal.exp (w0 - (qlv - plv)) + (pm - qm) * (pm - qm) * Ideal.exp (w0 - qlv)) - w1

/-- The same on real numbers. -/
def termR (pm plv qm qlv : ℝ) : ℝ :=
  ((qlv - plv) + Real.exp (-(qlv - plv)) + (pm - qm) * (pm - qm) * Real.exp (-qlv)) - 1

theorem term_coe (pm plv qm qlv : ℝ) :
    term (pm : EReal) (plv : EReal) (qm : EReal) (qlv : EReal) = ((termR pm plv qm qlv : ℝ) : EReal) := by
  unfold term termR
  rw [w0_eq, w1_eq]
  simp only [← EReal.coe_sub, ← EReal.coe_mul, ← EReal.coe_add, Ideal.exp_coe, zero_sub]

/-- With the negations written as negations: on the extended reals `0 − x = −x` everywhere. -/
theorem term_neg (pm plv qm qlv : EReal) :
    ((qlv - plv) + Ideal.exp (-(qlv - plv)) + (pm - qm) * (pm - qm) * Ideal.exp (-qlv)) - w1 = term pm plv qm qlv := by
  unfold term
  rw [show w0 = (0 : EReal) from Ideal.ofBits_zero_f32, zero_sub, zero_sub]

theorem term_isReal {pm plv qm qlv : EReal} (h0 : IsReal pm) (h1 : IsReal plv) (h2 : IsReal qm) (h3 : IsReal qlv) :
    IsReal (term pm plv qm qlv) := by
  obtain ⟨a0, rfl⟩ := h0
  obtain ⟨a1, rfl⟩ := h1
  obtain ⟨a2, rfl⟩ := h2
  obtain ⟨a3, rfl⟩ := h3
  exact ⟨_, term_coe a0 a1 a2 a3⟩

/-! ## The two arrangements of the double sum -/

/-- Row `n` of a 16384-row array, the row number read modulo the extent (so that it is defined for every natural). -/
def rowOf (n : ℕ) : Fin 16384 := ⟨n % 16384, Nat.mod_lt _ (by norm_num)⟩

/-- The table of summands of four [16384, 512] arrays: entry `(n, d)` is the summand of the four inputs at row `n`,
    coordinate `d`. -/
def table (A0 A1 A2 A3 : (⟨2, ![16384, 512]⟩ : Shape).Idx → EReal) (n : ℕ) (d : Fin 512) : EReal :=
  term (A0 (ix2 (rowOf n) d)) (A1 (ix2 (rowOf n) d)) (A2 (ix2 (rowOf n) d)) (A3 (ix2 (rowOf n) d))

/-- THE BLOCKED TOTAL of a table `T` of summands (row, coordinate): rows in 2 groups of 8 blocks of 1024; for the group
    of tile row `R` (group `R / 8`) the column sums accumulated from zero over its 8 blocks, added over the 512 columns,
    halved, divided by 1024; that number in every cell `(R, L)` of a 16 × 128 tile array; the cells added from zero and the
    total multiplied by 2⁻¹⁴. -/
def blockedTotal (T : ℕ → Fin 512 → EReal) : EReal :=
  (w0 + ∑ R : Fin 16, ∑ _L : Fin 128,
      Ideal.div (wHalf * ∑ d : Fin 512, (w0 + ∑ s ∈ Finset.range (7 + 1), ∑ r : Fin 1024, T ((8 * (R.val / 8) + s) * 1024 + r.val) d)) w1024)
    * wInv16384

/-- THE WHOLE-ARRAY TOTAL: per row the 512 summands added from zero and halved, the 16384 halves added from zero, the
    total divided by 16384. -/
def wholeTotal (T : ℕ → Fin 512 → EReal) : EReal :=
  Ideal.div (w0 + ∑ b : Fin 16384, wHalf * (w0 + ∑ d : Fin 512, T b.val d)) w16384

/-- On real numbers: the cells of a group's tile rows undo the division by 1024, and the rows regroup. -/
theorem totals_real (t : ℕ → Fin 512 → ℝ) :
    (0 + ∑ R : Fin 16, ∑ _L : Fin 128,
        ((1 / 2 : ℝ) * ∑ d : Fin 512, (0 + ∑ s ∈ Finset.range (7 + 1), ∑ r : Fin 1024, t ((8 * (R.val / 8) + s) * 1024 + r.val) d)) * (1 / 1024 : ℝ))
      * (1 / 16384 : ℝ)
    = (0 + ∑ b : Fin 16384, (1 / 2 : ℝ) * (0 + ∑ d : Fin 512, t b.val d)) * (1 / 16384 : ℝ) := by
  refine congrArg (· * (1 / 16384 : ℝ)) ?_
  rw [zero_add, zero_add]
  -- the group sums
  obtain ⟨c, hc⟩ : ∃ c : ℕ → ℝ, ∀ q, c q = ∑ d : Fin 512, ∑ s : Fin 8, ∑ r : Fin 1024, t ((q * 8 + s.val) * 1024 + r.val) d :=
    ⟨_, fun _ => rfl⟩
  have hL : ∀ R : Fin 16, (∑ _L : Fin 128,
      ((1 / 2 : ℝ) * ∑ d : Fin 512, (0 + ∑ s ∈ Finset.range (7 + 1), ∑ r : Fin 1024, t ((8 * (R.val / 8) + s) * 1024 + r.val) d)) * (1 / 1024 : ℝ))
      = (1 / 16 : ℝ) * c (R.val / 8) := by
    intro R
    rw [Finset.sum_const, Finset.card_univ, Fintype.card_fin, nsmul_eq_mul, hc]
    have hd : ∀ d : Fin 512, (0 + ∑ s ∈ Finset.range (7 + 1), ∑ r : Fin 1024, t ((8 * (R.val / 8) + s) * 1024 + r.val) d)
        = ∑ s : Fin 8, ∑ r : Fin 1024, t ((R.val / 8 * 8 + s.val) * 1024 + r.val) d := by
      intro d
      rw [zero_add, Finset.sum_range]
      refine Finset.sum_congr rfl fun s _ => Finset.sum_congr rfl fun r _ => ?_
      rw [Nat.mul_comm 8]
    rw [Finset.sum_congr rfl fun d _ => hd d]
    push_cast
    ring
  rw [Finset.sum_congr rfl fun R _ => hL R]
  have hR : (∑ R : Fin 16, (1 / 16 : ℝ) * c (R.val / 8)) = ∑ p : Fin 2, (1 / 2 : ℝ) * c p.val := by
    have h := LibBlockSum.sum_blocks 2 8 (fun n => (1 / 16 : ℝ) * c (n / 8))
    refine (h : (∑ R : Fin 16, (1 / 16 : ℝ) * c (R.val / 8)) = _).trans ?_
    refine Finset.sum_congr rfl fun p _ => ?_
    have : ∀ q : Fin 8, (1 / 16 : ℝ) * c ((p.val * 8 + q.val) / 8) = (1 / 16 : ℝ) * c p.val := by
      intro q
      have hq : (p.val * 8 + q.val) / 8 = p.val := by have := q.isLt; omega
      rw [hq]
    rw [Finset.sum_congr rfl fun q _ => this q, Finset.sum_const, Finset.card_univ, Fintype.card_fin, nsmul_eq_mul]
    push_cast
    ring
  rw [hR]
  -- the rows, regrouped
  have hB : ∀ d : Fin 512, (∑ b : Fin 16384, t b.val d)
      = ∑ p : Fin 2, ∑ s : Fin 8, ∑ r : Fin 1024, t ((p.val * 8 + s.val) * 1024 + r.val) d := fun d =>
    (LibBlockSum.sum_blocks₃ 2 8 1024 (fun n => t n d) : (∑ b : Fin 16384, t b.val d) = _)
  have hW : (∑ b : Fin 16384, (1 / 2 : ℝ) * (0 + ∑ d : Fin 512, t b.val d))
      = ∑ p : Fin 2, (1 / 2 : ℝ) * c p.val := by
    simp only [zero_add, hc]
    rw [← Finset.mul_sum, ← Finset.mul_sum, Finset.sum_comm, Finset.sum_congr rfl fun d _ => hB d, Finset.sum_comm]
  rw [hW]

/-- The two totals agree on a table of real numbers. -/
theorem totals_eq (T : ℕ → Fin 512 → EReal) (hT : ∀ n d, IsReal (T n d)) : blockedTotal T = wholeTotal T := by
  choose t ht using hT
  unfold blockedTotal wholeTotal
  rw [w0_eq, wHalf_eq, w1024_eq, w16384_eq, wInv16384_eq, Ideal.div_coe (by norm_num : (16384 : ℝ) ≠ 0)]
  simp only [ht, Ideal.div_coe (by norm_num : (1024 : ℝ) ≠ 0), sum_coe, ← EReal.coe_add, ← EReal.coe_mul]
  exact congrArg _ (totals_real t)

end KlSpec

end
-- ==== Proof.KlPieces.lean ====
/-
  What one grid point's body leaves behind, as the stored values applied to what it loaded.

  The body has three control cases. At the first block of a group (case A) it zeroes the [1, 512] accumulator and then
  accumulates into it, so the accumulator ends at the accumulation over zeros. At a middle block (case B) it
  accumulates over what the previous point left. At the last block of a group (case C) it accumulates likewise and then
  fills the [8, 128] output tile with the group's value computed from the accumulator it has just stored. Each store
  covers its whole buffer, so each buffer ends holding exactly the last value stored into it; loads of whole buffers
  read their contents. The statements hold for any float values.
-/
import proofs.«147227_j11879879543853_2_alg».proof.Proof.Gen.KernelIdeal.Frame
import Idealize.ShloMosaic.Lib.Pipeline.Value
import Idealize.ShloMosaic.Lib.Tactic

set_option maxRecDepth 16384

noncomputable section

namespace Cert.KernelIdeal.KlValue

open Idealize.ShloMosaic Idealize.ShloMosaic.TcCoe Idealize.ShloMosaic.Tactic Idealize.SL.Sem
open Cert.KernelIdeal Cert.KernelIdeal.Gen

variable {F : FTy → Type} [FloatOps F]

/-- The offsets of a whole-buffer access are zero on both axes. -/
theorem offs_zero : (![0, 0] : Fin 2 → Nat) = fun _ => 0 := funext fun a => by fin_cases a <;> rfl

/-- CASE A, the accumulator: the accumulation of the four blocks over the zeros just stored. -/
theorem sout_A (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S8x128 .f32) (harg6 : arg6.IsWhole) (arg7 : Memref sig .tc .vmem S1x512 .f32) (harg7 : arg7.IsWhole) (hc0 : cond0_0 i) (hc1 : ¬cond0_1 i)
    (x0 x1 x2 x3 : Vec F S1024x512 .f32) :
    sout0_A_0 c i arg2 harg2 arg3 harg3 arg4 harg4 arg5 harg5 arg6 harg6 arg7 harg7 hc0 hc1 x0 x1 x2 x3 = k0_pay2 x3 x1 x0 x2 x3 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1x512) offs_zero, View.readCov_unit_zero (S := S1x512) _ offs_zero]
  simp only [View.readAt_eq_ld, harg2.read_unread, harg3.read_unread, harg4.read_unread, harg5.read_unread,
    View.ld_unit_zero (S := S1024x512) offs_zero]

/-- CASE B, the accumulator: the accumulation of the four blocks over what it held. -/
theorem sout_B (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S8x128 .f32) (harg6 : arg6.IsWhole) (arg7 : Memref sig .tc .vmem S1x512 .f32) (harg7 : arg7.IsWhole) (hc0 : ¬cond0_0 i) (hc1 : ¬cond0_1 i)
    (x0 x1 x2 x3 : Vec F S1024x512 .f32) (xs0 : Vec F S1x512 .f32) :
    sout0_B_0 c i arg2 harg2 arg3 harg3 arg4 harg4 arg5 harg5 arg6 harg6 arg7 harg7 hc0 hc1 x0 x1 x2 x3 xs0 = k0_pay2 x3 x1 x0 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  rw [View.canon_unit_zero (S := S1x512) offs_zero]
  simp only [View.readAt_eq_ld, harg2.read_unread, harg3.read_unread, harg4.read_unread, harg5.read_unread,
    harg7.read_unread, View.ld_unit_zero (S := S1024x512) offs_zero, View.ld_unit_zero (S := S1x512) offs_zero]

/-- CASE C, the accumulator: as in case B. -/
theorem sout_C (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S8x128 .f32) (harg6 : arg6.IsWhole) (arg7 : Memref sig .tc .vmem S1x512 .f32) (harg7 : arg7.IsWhole) (hc0 : ¬cond0_0 i) (hc1 : cond0_1 i)
    (x0 x1 x2 x3 : Vec F S1024x512 .f32) (xs0 : Vec F S1x512 .f32) :
    sout0_C_0 c i arg2 harg2 arg3 harg3 arg4 harg4 arg5 harg5 arg6 harg6 arg7 harg7 hc0 hc1 x0 x1 x2 x3 xs0 = k0_pay2 x3 x1 x0 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S1x512) offs_zero]
  simp only [View.readAt_eq_ld, harg2.read_unread, harg3.read_unread, harg4.read_unread, harg5.read_unread,
    harg7.read_unread, View.ld_unit_zero (S := S1024x512) offs_zero, View.ld_unit_zero (S := S1x512) offs_zero]

/-- CASE C, the output tile: the group's value computed from the accumulator just stored. -/
theorem out_C (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S8x128 .f32) (harg6 : arg6.IsWhole) (arg7 : Memref sig .tc .vmem S1x512 .f32) (harg7 : arg7.IsWhole) (hc0 : ¬cond0_0 i) (hc1 : cond0_1 i)
    (x0 x1 x2 x3 : Vec F S1024x512 .f32) (xs0 : Vec F S1x512 .f32) :
    out0_C_4 c i arg2 harg2 arg3 harg3 arg4 harg4 arg5 harg5 arg6 harg6 arg7 harg7 hc0 hc1 x0 x1 x2 x3 xs0 = k0_pay3 (k0_pay2 x3 x1 x0 x2 x3 xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S8x128) offs_zero, View.readCov_unit_zero (S := S1x512) _ offs_zero]
  simp only [View.readAt_eq_ld, harg2.read_unread, harg3.read_unread, harg4.read_unread, harg5.read_unread,
    harg7.read_unread, View.ld_unit_zero (S := S1024x512) offs_zero, View.ld_unit_zero (S := S1x512) offs_zero]

end Cert.KernelIdeal.KlValue

end
-- ==== Proof.KlPayload.lean ====
/-
  The three stored values of the kernel body, read at an index on the extended reals.

  The body keeps a [1, 512] accumulator. It stores zeros into it (first block of a group only), then stores
  `accumulator + column sums of the block's 1024 × 512 summands`, and at the last block of a group stores, into every cell
  of an [8, 128] tile, `(½ · Σ_d accumulator[d]) / 1024`.
-/
import proofs.«147227_j11879879543853_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import proofs.«147227_j11879879543853_2_alg».proof.Proof.KlSpec

noncomputable section

namespace Cert.KernelIdeal.KlValue

open Idealize.ShloMosaic Idealize.ShloMosaic.ValueIdx Cert.KernelIdeal Cert.KernelIdeal.Gen
open scoped BigOperators

/-- A sum down the 1024 rows of a [1024, 512] vector, read at column `d`. -/
theorem colsum_apply (v : FVec Ideal S1024x512 .f32) (d : Fin 512) :
    multiReduction .add [0] S512 v 0x00000000#32 reduces_S1024x512_S512 (.inl rfl) rfl (ix1 d)
      = ∑ r : Fin 1024, v (ix2 r d) := by
  refine (Ideal.multiReduction_add_single v 0x00000000#32 reduces_S1024x512_S512 (.inl rfl) rfl (ix1 d)).trans ?_
  refine Finset.sum_congr rfl fun r _ => congrArg v ?_
  funext a
  match a with
  | ⟨0, _⟩ => rfl
  | ⟨1, _⟩ => rfl

/-- A sum along the 512 lanes of a [1, 512] vector. -/
theorem lanesum_apply (v : FVec Ideal S1x512 .f32) (u : Fin 1) :
    multiReduction .add [1] S1 v 0x00000000#32 reduces_S1x512_S1 (.inl rfl) rfl (ix1 u)
      = ∑ d : Fin 512, v (ix2 (0 : Fin 1) d) := by
  refine (Ideal.multiReduction_add_single v 0x00000000#32 reduces_S1x512_S1 (.inl rfl) rfl (ix1 u)).trans ?_
  refine Finset.sum_congr rfl fun d _ => congrArg v ?_
  funext a
  match a with
  | ⟨0, _⟩ => exact Fin.ext (by have := u.isLt; show u.val = 0; omega)
  | ⟨1, _⟩ => rfl

/-- The reset: zeros. -/
theorem pay1_apply (j : S1x512.Idx) : k0_pay1 (F := Ideal) j = KlSpec.w0 := by
  unfold k0_pay1
  rw [shapeCast_self]
  rfl

/-- The accumulation: at column `d` the accumulator's entry plus the sum over the block's rows of the summands of the four
    input blocks (`x0` … `x3`: means and log-variances of `p` and `q`; the log-variance of `q` is loaded twice). -/
theorem pay2_apply (x0 x1 x2 x3 : Vec Ideal S1024x512 .f32) (acc : Vec Ideal S1x512 .f32) (d : Fin 512) :
    k0_pay2 (F := Ideal) x3 x1 x0 x2 x3 acc (ix2 (0 : Fin 1) d)
      = acc (ix2 (0 : Fin 1) d)
        + ∑ r : Fin 1024, KlSpec.term (x0 (ix2 r d)) (x1 (ix2 r d)) (x2 (ix2 r d)) (x3 (ix2 r d)) := by
  unfold k0_pay2
  rw [shapeCast_self]
  refine congrArg (acc (ix2 (0 : Fin 1) d) + ·) ?_
  refine (shapeCast_a_1a_apply _ _ (0 : Fin 1) d).trans ?_
  refine (colsum_apply _ d).trans ?_
  rfl

/-- The group's value, in every cell of the tile: half the sum of the accumulator's 512 entries, divided by 1024. -/
theorem pay3_apply (acc : Vec Ideal S1x512 .f32) (r : Fin 8) (l : Fin 128) :
    k0_pay3 (F := Ideal) acc (ix2 r l)
      = Ideal.div (KlSpec.wHalf * ∑ d : Fin 512, acc (ix2 (0 : Fin 1) d)) KlSpec.w1024 := by
  unfold k0_pay3
  refine (broadcastTo_apply _ _ (ix2 r l) (ix2 (0 : Fin 1) (0 : Fin 1)) (fun a => by
    match a with
    | ⟨0, _⟩ => rfl
    | ⟨1, _⟩ => rfl)).trans ?_
  rw [shapeCast_self]
  refine congrArg (fun s => Ideal.div (KlSpec.wHalf * s) KlSpec.w1024) ?_
  refine (shapeCast_a_1a_apply _ _ (0 : Fin 1) (0 : Fin 1)).trans ?_
  exact lanesum_apply _ 0

end Cert.KernelIdeal.KlValue

end
-- ==== Proof.KlAccum.lean ====
/-
  The accumulator after each grid point, in closed form.

  Point `t` of the 2 × 8 grid (group `t / 8`, block `t % 8` of the group) sees rows `1024·t … 1024·t + 1023` of each of
  the four inputs. Its column sums of the summands are `blockSum t`. The accumulator is reset at the first block of a
  group and added to at every block, so after point `t` it holds, at column `d`,
  `0 + Σ_{s ≤ t % 8} blockSum (8·(t / 8) + s) d`: the fold of the group's blocks seen so far, by induction along the group.
-/
import proofs.«147227_j11879879543853_2_alg».proof.Proof.Gen.KernelIdeal.Frame
import proofs.«147227_j11879879543853_2_alg».proof.Proof.KlPieces
import proofs.«147227_j11879879543853_2_alg».proof.Proof.KlPayload
import Idealize.ShloMosaic.Lib.Pipeline.Value

set_option maxRecDepth 16384

noncomputable section

namespace Cert.KernelIdeal.KlValue

open Idealize.ShloMosaic Idealize.ShloMosaic.TcCoe Idealize.ShloMosaic.ValueIdx Idealize.SL.Sem
open Cert.KernelIdeal Cert.KernelIdeal.Gen
open scoped BigOperators

variable (m : (ℓ : Loc nD τ sig) → Buf (Elt Ideal) ℓ) (c : Dev nD)

/-- The four argument arrays on core `c`: means and log-variances of `p`, then of `q`. -/
abbrev arr0 : S16384x512.Idx → EReal := m ((c.tc : Thread nD τ).loc main_arg0)
abbrev arr1 : S16384x512.Idx → EReal := m ((c.tc : Thread nD τ).loc main_arg1)
abbrev arr2 : S16384x512.Idx → EReal := m ((c.tc : Thread nD τ).loc main_arg2)
abbrev arr3 : S16384x512.Idx → EReal := m ((c.tc : Thread nD τ).loc main_arg3)

/-- The table of summands of the four arrays. -/
abbrev tab : ℕ → Fin 512 → EReal := KlSpec.table (arr0 m c) (arr1 m c) (arr2 m c) (arr3 m c)

/-- Window 0 at point `t` is the block of rows `1024·t … 1024·t + 1023`, all 512 columns. -/
theorem idx_facts0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

theorem iblk0_apply (t : Fin cfg0.N) (r : Fin 1024) (d : Fin 512) :
    (iblk m c 0 t : Vec Ideal S1024x512 .f32) (ix2 r d) = arr0 m c (ix2 (KlSpec.rowOf (t.val * 1024 + r.val)) d) := by
  unfold iblk
  rw [View.read_apply]
  show V m c main_arg0 _ = _
  rw [V_main_arg0]
  refine congrArg (m ((c.tc : Thread nD τ).loc main_arg0)) ?_
  funext a
  apply Fin.ext
  have hN : cfg0.N = 16 := N_0
  have ht := t.isLt
  match a with
  | ⟨0, _⟩ =>
    show win0_0.index t 0 * 1024 + 1 * r.val = (t.val * 1024 + r.val) % 16384
    rw [(idx_facts0 t).1]; have := r.isLt; omega
  | ⟨1, _⟩ =>
    show win0_0.index t 1 * 512 + 1 * d.val = d.val
    rw [(idx_facts0 t).2]; omega

/-- Window 1 at point `t` is the block of rows `1024·t … 1024·t + 1023`, all 512 columns. -/
theorem idx_facts1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

theorem iblk1_apply (t : Fin cfg0.N) (r : Fin 1024) (d : Fin 512) :
    (iblk m c 1 t : Vec Ideal S1024x512 .f32) (ix2 r d) = arr1 m c (ix2 (KlSpec.rowOf (t.val * 1024 + r.val)) d) := by
  unfold iblk
  rw [View.read_apply]
  show V m c main_arg1 _ = _
  rw [V_main_arg1]
  refine congrArg (m ((c.tc : Thread nD τ).loc main_arg1)) ?_
  funext a
  apply Fin.ext
  have hN : cfg0.N = 16 := N_0
  have ht := t.isLt
  match a with
  | ⟨0, _⟩ =>
    show win0_1.index t 0 * 1024 + 1 * r.val = (t.val * 1024 + r.val) % 16384
    rw [(idx_facts1 t).1]; have := r.isLt; omega
  | ⟨1, _⟩ =>
    show win0_1.index t 1 * 512 + 1 * d.val = d.val
    rw [(idx_facts1 t).2]; omega

/-- Window 2 at point `t` is the block of rows `1024·t … 1024·t + 1023`, all 512 columns. -/
theorem idx_facts2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

theorem iblk2_apply (t : Fin cfg0.N) (r : Fin 1024) (d : Fin 512) :
    (iblk m c 2 t : Vec Ideal S1024x512 .f32) (ix2 r d) = arr2 m c (ix2 (KlSpec.rowOf (t.val * 1024 + r.val)) d) := by
  unfold iblk
  rw [View.read_apply]
  show V m c main_arg2 _ = _
  rw [V_main_arg2]
  refine congrArg (m ((c.tc : Thread nD τ).loc main_arg2)) ?_
  funext a
  apply Fin.ext
  have hN : cfg0.N = 16 := N_0
  have ht := t.isLt
  match a with
  | ⟨0, _⟩ =>
    show win0_2.index t 0 * 1024 + 1 * r.val = (t.val * 1024 + r.val) % 16384
    rw [(idx_facts2 t).1]; have := r.isLt; omega
  | ⟨1, _⟩ =>
    show win0_2.index t 1 * 512 + 1 * d.val = d.val
    rw [(idx_facts2 t).2]; omega

/-- Window 3 at point `t` is the block of rows `1024·t … 1024·t + 1023`, all 512 columns. -/
theorem idx_facts3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

theorem iblk3_apply (t : Fin cfg0.N) (r : Fin 1024) (d : Fin 512) :
    (iblk m c 3 t : Vec Ideal S1024x512 .f32) (ix2 r d) = arr3 m c (ix2 (KlSpec.rowOf (t.val * 1024 + r.val)) d) := by
  unfold iblk
  rw [View.read_apply]
  show V m c main_arg3 _ = _
  rw [V_main_arg3]
  refine congrArg (m ((c.tc : Thread nD τ).loc main_arg3)) ?_
  funext a
  apply Fin.ext
  have hN : cfg0.N = 16 := N_0
  have ht := t.isLt
  match a with
  | ⟨0, _⟩ =>
    show win0_3.index t 0 * 1024 + 1 * r.val = (t.val * 1024 + r.val) % 16384
    rw [(idx_facts3 t).1]; have := r.isLt; omega
  | ⟨1, _⟩ =>
    show win0_3.index t 1 * 512 + 1 * d.val = d.val
    rw [(idx_facts3 t).2]; omega

/-- The column sums of the summands over block `n`'s 1024 rows. -/
def blockSum (n : ℕ) (d : Fin 512) : EReal := ∑ r : Fin 1024, tab m c (n * 1024 + r.val) d

/-- The accumulation at point `t`, on the point's four blocks: the accumulator's entry plus the block's column sum. -/
theorem pay2_blocks (t : Fin cfg0.N) (acc : Vec Ideal S1x512 .f32) (d : Fin 512) :
    k0_pay2 (F := Ideal) (iblk m c 3 t) (iblk m c 1 t) (iblk m c 0 t) (iblk m c 2 t) (iblk m c 3 t) acc (ix2 (0 : Fin 1) d)
      = acc (ix2 (0 : Fin 1) d) + blockSum m c t.val d := by
  refine (pay2_apply (iblk m c 0 t) (iblk m c 1 t) (iblk m c 2 t) (iblk m c 3 t) acc d).trans ?_
  refine congrArg (acc (ix2 (0 : Fin 1) d) + ·) (Finset.sum_congr rfl fun r _ => ?_)
  rw [iblk0_apply m c t r d, iblk1_apply m c t r d, iblk2_apply m c t r d, iblk3_apply m c t r d]
  rfl

/-- The accumulator after the point at position `n`, column by column. -/
def accOf (n : ℕ) (h : n < cfg0.N) (d : Fin 512) : EReal := (outsAt0 m c n h).2 (ix2 (0 : Fin 1) d)

/-- At the first block of a group the accumulator restarts from zero. -/
theorem accOf_reset (n : ℕ) (h : n < cfg0.N) (h0 : n % 8 = 0) :
    accOf m c n h = fun d => KlSpec.w0 + blockSum m c n d := by
  funext d
  unfold accOf
  have h1 : ¬(⟨n, h⟩ : Fin cfg0.N).val % 8 = 7 := by dsimp only; omega
  rw [outsAt0_A m c ⟨n, h⟩ h0 h1]
  dsimp only
  rw [sout_A]
  refine (pay2_blocks m c ⟨n, h⟩ _ d).trans ?_
  rw [pay1_apply]

/-- At every other block it adds the block's column sums to what the point before left. -/
theorem accOf_step (n : ℕ) (h : n + 1 < cfg0.N) (h0 : ¬(n + 1) % 8 = 0) :
    accOf m c (n + 1) h = fun d => accOf m c n (Nat.lt_of_succ_lt h) d + blockSum m c (n + 1) d := by
  funext d
  unfold accOf
  by_cases h7 : (n + 1) % 8 = 7
  · rw [outsAt0_C m c ⟨n + 1, h⟩ h0 h7]
    dsimp only
    rw [sout_C]
    exact pay2_blocks m c ⟨n + 1, h⟩ (outsAt0 m c n (Nat.lt_of_succ_lt h)).2 d
  · rw [outsAt0_B m c ⟨n + 1, h⟩ h0 h7]
    dsimp only
    rw [sout_B]
    exact pay2_blocks m c ⟨n + 1, h⟩ (outsAt0 m c n (Nat.lt_of_succ_lt h)).2 d

/-- THE CLOSED FORM: after point `t` the accumulator is zero plus the column sums of the group's blocks up to `t`. -/
theorem accOf_closed (t : Fin cfg0.N) (d : Fin 512) :
    accOf m c t.val t.isLt d
      = KlSpec.w0 + ∑ s ∈ Finset.range (t.val % 8 + 1), blockSum m c (8 * (t.val / 8) + s) d := by
  have hlt : 8 * (t.val / 8) + t.val % 8 < cfg0.N := by rw [Nat.div_add_mod]; exact t.isLt
  have e := Pipeline.eq_accAt_of_mod (accOf m c) 8 (fun n _ d => KlSpec.w0 + blockSum m c n d)
    (fun n _ acc d => acc d + blockSum m c n d) (accOf_reset m c) (accOf_step m c) (by norm_num) t.val t.isLt hlt
  rw [e]
  exact Pipeline.accAt_add_apply _ _ (fun _ => KlSpec.w0) (fun n d => blockSum m c n d) (8 * (t.val / 8)) (t.val % 8)
    (fun _ _ => rfl) (fun _ _ _ _ _ _ => rfl) (t.val % 8) le_rfl hlt d

end Cert.KernelIdeal.KlValue

end
-- ==== Proof.KlKernelValue.lean ====
/-
  What the kernel's program returns, on the extended reals.

  The 16 × 128 result array of the pallas_call holds, in every cell of tile row `R`, the value of group `R / 8`:
  `(½ · Σ_d accumulator[d]) / 1024` with the accumulator as the last block of the group leaves it. The group's tile
  (rows `8·(R / 8) … 8·(R / 8) + 7`) is written back once, after the group's last point, and the two tiles cover the array.
  The host then adds the 2048 cells from zero and multiplies by 2⁻¹⁴: the blocked total of the table of summands.
-/
import proofs.«147227_j11879879543853_2_alg».proof.Proof.KlAccum
import Idealize.ShloMosaic.Lib.StableHlo.Run

set_option maxRecDepth 16384

noncomputable section

namespace Cert.KernelIdeal.KlValue

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

variable (m : (ℓ : Loc nD τ sig) → Buf (Elt Ideal) ℓ) (ρ : Dev nD → PrngReg) (c : Dev nD)

/-- The value of group `q`: half the sum over the columns of the group's accumulated column sums, divided by 1024. -/
def groupVal (q : ℕ) : EReal :=
  Ideal.div (KlSpec.wHalf * ∑ d : Fin 512, (KlSpec.w0 + ∑ s ∈ Finset.range (7 + 1), blockSum m c (8 * q + s) d)) KlSpec.w1024

/-- The result array of the pallas_call: every cell of tile row `R` at the value of group `R / 8`. -/
def tiles : S16x128.Idx → EReal := fun i => groupVal m c ((i 0).val / 8)

/-- The output window at point `t` is the tile of rows `8·(t / 8) … 8·(t / 8) + 7`, all 128 lanes. -/
theorem idx_facts4 : ∀ t : Fin cfg0.N, win0_4.index t (0 : Fin 2) = t.val / 8 ∧ win0_4.index t (1 : Fin 2) = 0 :=
  (by decide +kernel : ∀ t : Fin grid0.N, win0_4.index t (0 : Fin 2) = t.val / 8 ∧ win0_4.index t (1 : Fin 2) = 0)

/-- At the last point of a group the output's staging buffer holds the group's value in every cell. -/
theorem tile_at_flush (t : Fin cfg0.N) (h7 : t.val % 8 = 7) (j : S8x128.Idx) :
    ((outsAt0 m c t.val t.isLt).1 : Vec Ideal S8x128 .f32) j = groupVal m c (t.val / 8) := by
  have h0 : ¬t.val % 8 = 0 := by omega
  have e1 : (outsAt0 m c t.val t.isLt).1 = k0_pay3 (F := Ideal) (outsAt0 m c t.val t.isLt).2 := by
    rw [outsAt0_C m c t h0 h7]; dsimp only; rw [out_C, sout_C]
  obtain ⟨r, l, rfl⟩ : ∃ (r : Fin 8) (l : Fin 128), j = ix2 r l := ⟨j 0, j 1, eq_ix2 j⟩
  rw [e1, pay3_apply]
  unfold groupVal
  refine congrArg (fun s => Ideal.div (KlSpec.wHalf * s) KlSpec.w1024) (Finset.sum_congr rfl fun d _ => ?_)
  have e2 := accOf_closed m c t d
  rw [h7] at e2
  exact e2

/-- What a write-back writes is its tile of the result array. -/
theorem flushed_eq (t : Fin cfg0.N) (hf : (cfg0.win 4).flush t = true) :
    (dats m 0 c).flushed 4 t = ((cfg0.win 4).blk t).view.read (Elt Ideal) (tiles m c) := by
  have h7 : t.val % 8 = 7 := (flush0_4 t).mp hf
  show (cfg0.win 4).cut (grid0.coords t) ((dats m 0 c).after 4 t) = _
  rw [after0_4]
  funext y
  rw [View.read_apply]
  refine (tile_at_flush m c t h7 _).trans ?_
  have h8 : (y 0).val < 8 := (y 0).isLt
  show groupVal m c (t.val / 8) = groupVal m c ((win0_4.index t 0 * 8 + 1 * (y 0).val) / 8)
  rw [(idx_facts4 t).1]
  refine congrArg (groupVal m c) ?_
  omega

/-- Every cell of the result array is in the tile written back after its group's last point. -/
theorem cover (i : ((cfg0.win 4).arr.view.loc (c.tc : Thread nD τ)).2.ty.Idx) :
    ∃ t : Fin cfg0.N, (cfg0.win 4).flush t = true ∧ i ∈ ((cfg0.win 4).blk t).view.set := by
  have hN : cfg0.N = 16 := N_0
  have hi0 : (i 0 : ℕ) < 16 := (i 0).isLt
  have hi1 : (i 1 : ℕ) < 128 := (i 1).isLt
  obtain ⟨t, ht⟩ : ∃ t : Fin cfg0.N, t.val = 8 * ((i 0 : ℕ) / 8) + 7 := ⟨⟨8 * ((i 0 : ℕ) / 8) + 7, by omega⟩, rfl⟩
  refine ⟨t, (flush0_4 t).mpr (by omega), ?_⟩
  show i ∈ ((View.whole main_v0).slice (win0_4.rect t)).set
  rw [View.set_slice_whole, Rect.mem_set_unit]
  intro a
  match a with
  | ⟨0, _⟩ =>
    show win0_4.index t 0 * 8 ≤ (i 0 : ℕ) ∧ (i 0 : ℕ) < win0_4.index t 0 * 8 + 8
    rw [(idx_facts4 t).1]; omega
  | ⟨1, _⟩ =>
    show win0_4.index t 1 * 128 ≤ (i 1 : ℕ) ∧ (i 1 : ℕ) < win0_4.index t 1 * 128 + 128
    rw [(idx_facts4 t).2]; omega

/-- So the result array ends holding the tiles. -/
theorem final_tiles : (dats m 0 c).arrAt 4 cfg0.N = tiles m c :=
  (dats m 0 c).arrAt_eq_of_cover 4 (tiles m c) (flushed_eq m c) (cover c)

/-- The program's result: the 2048 cells added from zero, times 2⁻¹⁴. -/
theorem tail_eq : Pipeline.afterTail₀ cfgs (dats m) 0 (V0 m) [hostOps1] c main_v2
    = (fun _ => KlSpec.blockedTotal (tab m c)) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v0)
      = tiles m c :=
    (Pipeline.withArrays_arr spec0 launch0.win.arr_inj c _ _ 4).trans (final_tiles m c)
  rw [e]
  funext x
  have hsum : Host.reduceAdd (F := Ideal) (tiles m c) (constant S_ .f32 0x00000000#32) reducesTo_S16x128_S_d0_1 h_S_ x
      = KlSpec.w0 + ∑ i : S16x128.Idx, tiles m c i := by
    generalize tiles m c = y0
    simp only [Host.reduceAdd, Ideal.hostReduceAdd_def]
    exact Ideal.hostReduceAdd_total reducesTo_S16x128_S_d0_1 (fun b => b.elim0) y0 _ x
  show Host.reduceAdd (F := Ideal) (tiles m c) (constant S_ .f32 0x00000000#32) reducesTo_S16x128_S_d0_1 h_S_ x
      * KlSpec.wInv16384 = _
  rw [hsum, sum_idx2]
  rfl

/-- The result buffer is no window's array: the frame run states it among the other unscoped buffers. -/
theorem result_rest : main_v2 ∈ Pipeline.restRefs sig (cfgs 0).spec :=
  Pipeline.mem_restRefs_of main_v2 rfl (by decide)

/-- THE KERNEL'S RUN: every weakly fair execution terminates with the result at the blocked total of the table of
    summands of the argument arrays, and the arguments unchanged. -/
theorem run : θ_run defs (onTc (τ := τ) (main (F := Ideal))) ⟨m, fun _ => 0, ρ⟩ (fun r => ∀ c : Dev nD,
      r.2.mem ((c.tc : Thread nD τ).loc main_v2) = (fun _ => KlSpec.blockedTotal (tab m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_v2 result_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.KlValue

end
-- ==== Proof.LibIdxSum.lean ====
/-
  A sum over the index set of a rank-1 or rank-3 array is the iterated sum over its coordinates.

  An index of a shape is a function from the axes to the coordinates; for literal extents it is the tuple of its
  coordinates, so summing over all indices is summing over the coordinates one axis after the other (outermost axis
  first). The rank-2 case is the library's `sum_idx2`; these are the rank-1 and rank-3 cases, in any commutative
  additive monoid.
-/
import Idealize.ShloMosaic.Lib.ValueIdx

open Idealize.ShloMosaic Idealize.ShloMosaic.ValueIdx

namespace LibIdxSum

/-- A rank-1 index is its one coordinate. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- A rank-3 index is the triple of its coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates, outermost axis first. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end LibIdxSum
-- ==== Proof.KlReference.lean ====
/-
  What the reference computes, on the extended reals: the whole-array total of the table of summands.

  Per entry it forms `(q_lv − p_lv) + exp (−(q_lv − p_lv)) + (p_mu − q_mu)² · exp (−q_lv) − 1`; per row it adds the 512
  entries from zero and halves; it adds the 16384 halves from zero and divides by 16384.
-/
import proofs.«147227_j11879879543853_2_alg».proof.Proof.Gen.ReferenceIdeal.Read
import proofs.«147227_j11879879543853_2_alg».proof.Proof.KlSpec
import proofs.«147227_j11879879543853_2_alg».proof.Proof.LibIdxSum

noncomputable section

namespace Cert.ReferenceIdeal.KlRef

open Idealize.ShloMosaic Idealize.ShloMosaic.ValueIdx
open Cert.ReferenceIdeal Cert.ReferenceIdeal.Read
open scoped BigOperators

/-- One entry of the reference's array of summands is the summand of the four inputs there. -/
theorem summand_apply (x0 x1 x2 x3 : (⟨S16384x512, .f32⟩ : BufTy).Contents (Elt Ideal)) (b : Fin 16384) (k : Fin 512) :
    val_main_v11 (F := Ideal) x0 x1 x2 x3 (ix2 b k) = KlSpec.table x0 x1 x2 x3 b.val k := by
  have hrow : KlSpec.rowOf b.val = b := Fin.ext (Nat.mod_eq_of_lt b.isLt)
  unfold KlSpec.table
  rw [hrow, val_main_v11_apply, val_main_v10_apply, val_main_cst_apply]
  exact KlSpec.term_neg (x0 (ix2 b k)) (x1 (ix2 b k)) (x2 (ix2 b k)) (x3 (ix2 b k))

/-- The reference's result is the whole-array total. -/
theorem result_eq (x0 x1 x2 x3 : (⟨S16384x512, .f32⟩ : BufTy).Contents (Elt Ideal)) :
    val_main_v16 (F := Ideal) x0 x1 x2 x3 = fun _ => KlSpec.wholeTotal (KlSpec.table x0 x1 x2 x3) := by
  funext i
  rw [val_main_v16_apply, val_main_v15_apply, LibIdxSum.sum_idx1]
  unfold KlSpec.wholeTotal
  refine congrArg₂ Ideal.div (congrArg (KlSpec.w0 + ·) (Finset.sum_congr rfl fun b _ => ?_)) rfl
  rw [val_main_v14_apply, val_main_v13_apply, val_main_v12_apply]
  refine congrArg₂ (· * ·) rfl (congrArg (KlSpec.w0 + ·) (Finset.sum_congr rfl fun k _ => ?_))
  have hidx : idx_main_v12 (ix1 b) k = ix2 b k := funext fun a => by
    match a with
    | ⟨0, _⟩ => rfl
    | ⟨1, _⟩ => rfl
  rw [hidx]
  exact summand_apply x0 x1 x2 x3 b k

end Cert.ReferenceIdeal.KlRef

end
-- ==== Proof.LibFiniteInputs.lean ====
/-
  Finite inputs, read out of a printed precondition.

  A precondition "every entry of `x` is finite" is written `jnp.all(jnp.abs(x) < inf)` and prints, per array, as a reduction by
  `and` from the constant 1 of the elementwise test `|x| < +∞` (the bound broadcast from a scalar constant), the per-array results
  joined by `and`. On the extended reals, where there is no NaN, the test at an entry says that neither `x` nor `-x` is `+∞`:
  the entry is a real number. `all_real`: from one array's reduction being 1, every entry of that array is a real, for any shape,
  any reduced axes and any broadcast of the bound. The joined results are split by `IntOp.andi_eq_one`.
-/
import Idealize.ShloMosaic.PureOps
import Idealize.ShloMosaic.PureOps.Ideal
import Idealize.ShloMosaic.PureOps.Ideal.Laws
import Idealize.ShloMosaic.Lib.ReduceAll

noncomputable section

namespace FiniteInputs

open Idealize.ShloMosaic

/-- An extended real whose absolute value is below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The binary32 word of `+∞` denotes the top of the extended reals. -/
theorem ofBits_inf : Ideal.ofBits .f32 0x7F800000#32 = (⊤ : EReal) := by
  simp [Ideal.ofBits, Ideal.ieee]

/-- One entry's test: `|x| < +∞` answered 1 makes `x` a real number. -/
theorem real_of_test (x : EReal) (h : Ideal.cmp .olt (max x (-x)) (Ideal.ofBits .f32 0x7F800000#32) = 1#1) :
    ∃ r : ℝ, x = (r : EReal) := by
  rw [ofBits_inf] at h
  refine real_of_abs_lt_top x ?_
  by_contra hn
  simp [Ideal.cmp, hn] at h

/-- THE ARRAY FORM. If the printed `jnp.all(jnp.abs(x) < inf)` of an array is 1 — the reduction by `and` (over any axes, into a
    result of one index, from any initial value) of the elementwise comparison of `|x|` with the broadcast word of `+∞` —, then
    every entry of `x` is a real number. -/
theorem all_real {S T U Z : Shape} [Subsingleton T.Idx] {axes : List (Fin S.rank)} {dims : Fin Z.rank → Fin S.rank}
    (x : FVec Ideal S .f32) (hb : Z.BroadcastsInDim S dims) (init : U.Idx → BitVec 1) (hred : S.ReducesTo axes T)
    (hu : 0 < U.numel) (j : T.Idx)
    (h : Host.reduce IntOp.andi (cmpf .olt (Host.absf x) (broadcastInDim S dims hb (constant (F := Ideal) Z .f32 0x7F800000#32)))
        init hred hu j = 1#1)
    (i : S.Idx) : ∃ r : ℝ, x i = (r : EReal) := by
  have e := Host.reduce_andi_all _ init hred hu j h i
  exact real_of_test (x i) e

end FiniteInputs

end
-- ==== Proof.KlFinite.lean ====
/-
  The precondition, read: every entry of each of the four inputs is a real number.

  The precondition is the conjunction, over the four arrays, of `all(|x| < +∞)`. Its value 1 splits into the four
  reductions being 1, and each of those makes every entry of its array a real number.
-/
import proofs.«147227_j11879879543853_2_alg».proof.Pre_finite_inputs
import proofs.«147227_j11879879543853_2_alg».proof.Proof.Gen.Pre_finite_inputs
import proofs.«147227_j11879879543853_2_alg».proof.Proof.LibFiniteInputs
import proofs.«147227_j11879879543853_2_alg».proof.Proof.LibFiniteReal
import Idealize.ShloMosaic.Lib.Affine
import Idealize.ShloMosaic.Lib.ValueIdx

noncomputable section

namespace Cert.KlFinite

open Idealize.ShloMosaic Cert.LibFiniteReal

/-- The rank-0 shape has one index. -/
instance : Subsingleton Cert.Pre_finite_inputs.S_.Idx := ⟨fun _ _ => funext fun d => d.elim0⟩

/-- If the precondition's function is 1 on four arrays, every entry of each is a real number. -/
theorem inputs_real (x0 x1 x2 x3 : FVec Ideal Cert.Pre_finite_inputs.S16384x512 .f32)
    (h : Cert.Pre_finite_inputs.fn (F := Ideal) x0 x1 x2 x3 = fun _ => 1#1) :
    (∀ i, IsReal (x0 i)) ∧ (∀ i, IsReal (x1 i)) ∧ (∀ i, IsReal (x2 i)) ∧ (∀ i, IsReal (x3 i)) := by
  have h' := congrFun h ValueIdx.ix0
  dsimp only [Cert.Pre_finite_inputs.fn, Cert.Pre_finite_inputs.fn_part1] at h'
  obtain ⟨h012, h3⟩ := IntOp.andi_eq_one.mp h'
  obtain ⟨h01, h2⟩ := IntOp.andi_eq_one.mp h012
  obtain ⟨h0, h1⟩ := IntOp.andi_eq_one.mp h01
  exact ⟨fun i => FiniteInputs.all_real x0 _ _ _ _ _ h0 i, fun i => FiniteInputs.all_real x1 _ _ _ _ _ h1 i,
    fun i => FiniteInputs.all_real x2 _ _ _ _ _ h2 i, fun i => FiniteInputs.all_real x3 _ _ _ _ _ h3 i⟩

end Cert.KlFinite

end
-- ==== Proof.lean ====
/-
  The mean Kullback–Leibler divergence between two batches of diagonal Gaussians: a blocked kernel against the
  whole-array formula.

  For 16384 rows of 512 coordinates the loss is `(1/16384) · Σ_b ½ · Σ_d s(b, d)` with the summand
  `s = (q_lv − p_lv) + exp (−(q_lv − p_lv)) + (p_mu − q_mu)² · exp (−q_lv) − 1`.
  The reference computes exactly that. The kernel walks the rows in 2 groups of 8 blocks of 1024 rows: per group it
  accumulates the 512 column sums of the summands block after block, and after the group's last block writes
  `(½ · Σ_d column sum) / 1024` into every cell of an 8 × 128 tile; the host adds the 2048 cells and multiplies by 2⁻¹⁴.

  The three frames: the two kernel programs' are the generated frame certificates; the reference has no kernel and its
  frame is its run with the result dropped. The idealization rewrote nothing. For the value claim, the kernel's result is
  read off its frame run (what each point leaves; the accumulator's closed form along a group; the tiles; the host's two
  operations) as the blocked total of the table of summands, the reference's off its run as the whole-array total, and the
  two totals agree when every summand is a real number: the 1024 equal cells undo the division by 1024, the rows regroup
  as groups of blocks of rows, and halving distributes over the sums. The summands are real because the precondition
  makes every input entry real; at the infinities the distribution of the halving over a sum would fail, which is where
  the precondition is used.
-/
import proofs.«147227_j11879879543853_2_alg».proof.Defs
import proofs.«147227_j11879879543853_2_alg».proof.Proof.Gen.Kernel
import proofs.«147227_j11879879543853_2_alg».proof.Proof.Gen.Kernel.Skeleton
import proofs.«147227_j11879879543853_2_alg».proof.Proof.Gen.Kernel.Launch
import proofs.«147227_j11879879543853_2_alg».proof.Proof.Gen.Kernel.Points
import proofs.«147227_j11879879543853_2_alg».proof.Proof.Gen.Kernel.Frame
import proofs.«147227_j11879879543853_2_alg».proof.Proof.Gen.KernelIdeal
import proofs.«147227_j11879879543853_2_alg».proof.Proof.Gen.KernelIdeal.Skeleton
import proofs.«147227_j11879879543853_2_alg».proof.Proof.Gen.KernelIdeal.Launch
import proofs.«147227_j11879879543853_2_alg».proof.Proof.Gen.KernelIdeal.Points
import proofs.«147227_j11879879543853_2_alg».proof.Proof.Gen.KernelIdeal.Frame
import proofs.«147227_j11879879543853_2_alg».proof.Proof.Gen.ReferenceIdeal
import proofs.«147227_j11879879543853_2_alg».proof.Proof.Gen.ReferenceIdeal.Run
import proofs.«147227_j11879879543853_2_alg».proof.Proof.Gen.ReferenceIdeal.Read
import proofs.«147227_j11879879543853_2_alg».proof.Proof.Gen.Pre_finite_inputs
import proofs.«147227_j11879879543853_2_alg».proof.Proof.KlSpec
import proofs.«147227_j11879879543853_2_alg».proof.Proof.KlKernelValue
import proofs.«147227_j11879879543853_2_alg».proof.Proof.KlReference
import proofs.«147227_j11879879543853_2_alg».proof.Proof.KlFinite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result is the blocked total and the reference's the whole-array total of one table of summands, all real
    numbers under the precondition: equal. -/
theorem algebraic : Cert.algebraic_KernelIdeal_ReferenceIdeal := by
  intro m ρ m' ρ' hpre hagree
  refine ⟨fun c => (fun _ => KlSpec.blockedTotal (Cert.KernelIdeal.KlValue.tab m c)), Cert.KernelIdeal.KlValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.KlRef.result_eq, (hagree c).1, (hagree c).2.1,
    (hagree c).2.2.1, (hagree c).2.2.2]
  obtain ⟨r0, r1, r2, r3⟩ := Cert.KlFinite.inputs_real _ _ _ _ (hpre c)
  funext _
  exact (KlSpec.totals_eq _ fun n d => KlSpec.term_isReal (r0 _) (r1 _) (r2 _) (r3 _)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
